-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x32x4096 : Shape := ⟨3, ![1, 32, 4096]⟩
abbrev S16384x4096 : Shape := ⟨2, ![16384, 4096]⟩
abbrev S16384 : Shape := ⟨1, ![16384]⟩
abbrev S_ : Shape := ⟨0, ![]⟩

class Facts : Prop where
  bcast_S_S1x32x4096 : S_.BroadcastsInDim S1x32x4096 (![] : Fin 0 → Fin S1x32x4096.rank)
  reducesTo_S1x32x4096_S_d0_1_2 : S1x32x4096.ReducesTo [0, 1, 2] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S1x32x4096 .f32) (main_arg1 : IVec S16384x4096 32) (main_arg2 : FVec F S16384 .f32) : IVec S_ 1 :=
  let main_v0 : FVec F S1x32x4096 .f32 := Host.absf main_arg0
  let main_cst : FVec F S_ .f32 := constant S_ .f32 0x7F800000#32
  let main_v1 : FVec F S1x32x4096 .f32 := broadcastInDim S1x32x4096 ![] bcast_S_S1x32x4096 main_cst
  let main_v2 : IVec S1x32x4096 1 := cmpf .olt main_v0 main_v1
  let main_c : IVec S_ 1 := constantI S_ 1 1#1
  let main_v3 : IVec S_ 1 := (fun x v => Host.reduce IntOp.andi x v reducesTo_S1x32x4096_S_d0_1_2 h_S_) main_v2 main_c
  let main_v4 : FVec F S16384 .f32 := Host.absf main_arg2
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  main_v8
-- ==== Kernel.lean ====
abbrev S1x32x4096 : Shape := ⟨3, ![1, 32, 4096]⟩
abbrev S16384x4096 : Shape := ⟨2, ![16384, 4096]⟩
abbrev S16384 : Shape := ⟨1, ![16384]⟩
abbrev S1x16384 : Shape := ⟨2, ![1, 16384]⟩
abbrev S1x32x16384 : Shape := ⟨3, ![1, 32, 16384]⟩
abbrev S1024x4096 : Shape := ⟨2, ![1024, 4096]⟩
abbrev S1x1024 : Shape := ⟨2, ![1, 1024]⟩
abbrev S1x32x1024 : Shape := ⟨3, ![1, 32, 1024]⟩
abbrev S32x4096 : Shape := ⟨2, ![32, 4096]⟩
abbrev S128x4096 : Shape := ⟨2, ![128, 4096]⟩
abbrev S32x128 : Shape := ⟨2, ![32, 128]⟩
abbrev S1x128 : Shape := ⟨2, ![1, 128]⟩
abbrev S1x32x128 : Shape := ⟨3, ![1, 32, 128]⟩

abbrev nBuf : Space → Nat
  | .hbm => 5
  | .vmem => 7
  | .smem => 0
  | _ => 0

abbrev bufTy : (tb : Table) → Fin (tcTables nBuf tb) → BufTy
  | .hbm, ⟨0, _⟩ => ⟨S1x32x4096, .f32⟩
  | .hbm, ⟨1, _⟩ => ⟨S16384x4096, .i32⟩
  | .hbm, ⟨2, _⟩ => ⟨S16384, .f32⟩
  | .hbm, ⟨3, _⟩ => ⟨S1x16384, .f32⟩
  | .hbm, ⟨4, _⟩ => ⟨S1x32x16384, .f32⟩
  | .local _ .vmem, ⟨0, _⟩ => ⟨S1x32x4096, .f32⟩
  | .local _ .vmem, ⟨1, _⟩ => ⟨S1024x4096, .i32⟩
  | .local _ .vmem, ⟨2, _⟩ => ⟨S1024x4096, .i32⟩
  | .local _ .vmem, ⟨3, _⟩ => ⟨S1x1024, .f32⟩
  | .local _ .vmem, ⟨4, _⟩ => ⟨S1x1024, .f32⟩
  | .local _ .vmem, ⟨5, _⟩ => ⟨S1x32x1024, .f32⟩
  | .local _ .vmem, ⟨6, _⟩ => ⟨S1x32x1024, .f32⟩
  | _, _ => ⟨S1x32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c128_i32 : BitVec 32 := 128#32
  let v3 : BitVec 32 := Scalar.muli c0_i32 c128_i32
  v3
def k0_off1 (c0_i32 : BitVec 32) : Fin 2 → Nat :=
  let c128_i32 : BitVec 32 := 128#32
  let v3 : BitVec 32 := Scalar.muli c0_i32 c128_i32
  let v4 : BitVec 32 := v3
  let v5 : Index := Scalar.indexCast v4
  let c0_2 : Index := 0#32
  ![v5.toNat, 0]
def k0_off2 (c0_i32 : BitVec 32) : Fin 2 → Nat :=
  let c0_3 : Index := 0#32
  let c128_i32 : BitVec 32 := 128#32
  let v3 : BitVec 32 := Scalar.muli c0_i32 c128_i32
  let v4 : BitVec 32 := v3
  let v9 : Index := Scalar.indexCast v4
  ![0, v9.toNat]
def k0_off3 (c0_i32 : BitVec 32) : Fin 3 → Nat :=
  let c0_4 : Index := 0#32
  let c0_5 : Index := 0#32
  let c128_i32 : BitVec 32 := 128#32
  let v3 : BitVec 32 := Scalar.muli c0_i32 c128_i32
  let v4 : BitVec 32 := v3
  let v14 : Index := Scalar.indexCast v4
  ![0, 0, v14.toNat]
def k0_mult2 : BitVec 32 :=
  let c1_i32 : BitVec 32 := 1#32
  let c128_i32_6 : BitVec 32 := 128#32
  let v18 : BitVec 32 := Scalar.muli c1_i32 c128_i32_6
  v18
def k0_mult3 : BitVec 32 :=
  let c2_i32 : BitVec 32 := 2#32
  let c128_i32_12 : BitVec 32 := 128#32
  let v33 : BitVec 32 := Scalar.muli c2_i32 c128_i32_12
  v33
def k0_mult4 : BitVec 32 :=
  let c3_i32 : BitVec 32 := 3#32
  let c128_i32_18 : BitVec 32 := 128#32
  let v48 : BitVec 32 := Scalar.muli c3_i32 c128_i32_18
  v48
def k0_mult5 : BitVec 32 :=
  let c4_i32 : BitVec 32 := 4#32
  let c128_i32_24 : BitVec 32 := 128#32
  let v63 : BitVec 32 := Scalar.muli c4_i32 c128_i32_24
  v63
def k0_mult6 : BitVec 32 :=
  let c5_i32 : BitVec 32 := 5#32
  let c128_i32_30 : BitVec 32 := 128#32
  let v78 : BitVec 32 := Scalar.muli c5_i32 c128_i32_30
  v78
def k0_mult7 : BitVec 32 :=
  let c6_i32 : BitVec 32 := 6#32
  let c128_i32_36 : BitVec 32 := 128#32
  let v93 : BitVec 32 := Scalar.muli c6_i32 c128_i32_36
  v93
def k0_mult8 : BitVec 32 :=
  let c7_i32 : BitVec 32 := 7#32
  let c128_i32_42 : BitVec 32 := 128#32
  let v108 : BitVec 32 := Scalar.muli c7_i32 c128_i32_42
  v108
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S1x32x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16384_S1x16384 : S16384.ShapeCasts S1x16384
  inb_S1x32x4096_S1x32x4096_0_0_0 : ∀ a, (![0, 0, 0] : Fin 3 → Nat) a + S1x32x4096.size a ≤ S1x32x4096.size a
  h_S1x32x4096 : 0 < S1x32x4096.numel
  shapeCasts_S1x32x4096_S32x4096 : S1x32x4096.ShapeCasts S32x4096
  bitsLt_bf16_f32 : FTy.bits .bf16 < FTy.bits .f32
  h_S128x4096 : 0 < S128x4096.numel
  h_S1x128 : 0 < S1x128.numel
  shapeCasts_S1x128_S1x128 : S1x128.ShapeCasts S1x128
  broadcasts_S1x128_S32x128 : S1x128.Broadcasts S32x128
  h_S1x32x128 : 0 < S1x32x128.numel
  shapeCasts_S1x32x128_S32x128 : S1x32x128.ShapeCasts S32x128
  shapeCasts_S32x128_S1x32x128 : S32x128.ShapeCasts S1x32x128
  dot_S32x4096_S128x4096_S32x128_1_1_0_0_n_n_wf : DotDims.WF S32x4096 S128x4096 S32x128 [1] [1] [0] [0] [] []
  hrank0 : 0 < grid0.rank
  k0_mult1_dvd : 128 ∣ k0_mult1.toNat
  k0_off1_inb : ∀ (r : Fin 8), ∀ a, (k0_off1 (BitVec.ofNat 32 r.val)) a + S128x4096.size a ≤ S1024x4096.size a
  k0_off2_inb : ∀ (r : Fin 8), ∀ a, (k0_off2 (BitVec.ofNat 32 r.val)) a + S1x128.size a ≤ S1x1024.size a
  k0_off3_inb : ∀ (r : Fin 8), ∀ a, (k0_off3 (BitVec.ofNat 32 r.val)) a + S1x32x128.size a ≤ S1x32x1024.size a
  k0_mult2_dvd : 128 ∣ k0_mult2.toNat
  k0_mult3_dvd : 128 ∣ k0_mult3.toNat
  k0_mult4_dvd : 128 ∣ k0_mult4.toNat
  k0_mult5_dvd : 128 ∣ k0_mult5.toNat
  k0_mult6_dvd : 128 ∣ k0_mult6.toNat
  k0_mult7_dvd : 128 ∣ k0_mult7.toNat
  k0_mult8_dvd : 128 ∣ k0_mult8.toNat
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x32x4096.size a ≤ S1x32x4096.size a
  hwx0_0 : ∀ i : grid0.Coords, EltTy.bits .f32 = 32 ∨ (Rect.block (s := S1x32x4096) S1x32x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S16384x4096.size a
  hwx0_1 : ∀ i : grid0.Coords, EltTy.bits .i32 = 32 ∨ (Rect.block (s := S16384x4096) S1024x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x16384.size a
  hwx0_2 : ∀ i : grid0.Coords, EltTy.bits .f32 = 32 ∨ (Rect.block (s := S1x16384) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x1024.size a ≤ S1x32x16384.size a
  hwx0_3 : ∀ i : grid0.Coords, EltTy.bits .f32 = 32 ∨ (Rect.block (s := S1x32x16384) S1x32x1024.size (cc0_transform_3 i) (hinb0_3 i)).WholeWords (EltTy.packing .f32)

variable [Facts₀]

def dot_S32x4096_S128x4096_S32x128_1_1_0_0_n_n : DotDims S32x4096 S128x4096 S32x128 where
  lhsContracting := [1]
  rhsContracting := [1]
  lhsNonContracting := [0]
  rhsNonContracting := [0]
  lhsBatch := []
  rhsBatch := []
  wf := dot_S32x4096_S128x4096_S32x128_1_1_0_0_n_n_wf

abbrev win0_0 : Pipeline.Window sig grid0 :=
  Pipeline.Window.ofSpec (Memref.whole main_arg0) S1x32x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x32x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1x32x4096 : Shape := ⟨3, ![1, 32, 4096]⟩
abbrev S16384x4096 : Shape := ⟨2, ![16384, 4096]⟩
abbrev S16384 : Shape := ⟨1, ![16384]⟩
abbrev S16384x1 : Shape := ⟨2, ![16384, 1]⟩
abbrev S1x32x16384 : Shape := ⟨3, ![1, 32, 16384]⟩

abbrev nBuf : Space → Nat
  | .hbm => 8
  | .vmem => 0
  | .smem => 0
  | _ => 0

abbrev bufTy : (tb : Table) → Fin (tcTables nBuf tb) → BufTy
  | .hbm, ⟨0, _⟩ => ⟨S1x32x4096, .f32⟩
  | .hbm, ⟨1, _⟩ => ⟨S16384x4096, .i32⟩
  | .hbm, ⟨2, _⟩ => ⟨S16384, .f32⟩
  | .hbm, ⟨3, _⟩ => ⟨S16384x4096, .f32⟩
  | .hbm, ⟨4, _⟩ => ⟨S16384x1, .f32⟩
  | .hbm, ⟨5, _⟩ => ⟨S16384x4096, .f32⟩
  | .hbm, ⟨6, _⟩ => ⟨S16384x4096, .f32⟩
  | .hbm, ⟨7, _⟩ => ⟨S1x32x16384, .f32⟩
  | _, _ => ⟨S1x32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S16384_S16384x1_0 : S16384.BroadcastsInDim S16384x1 (![0] : Fin 1 → Fin S16384x1.rank)
  bcast_S16384x1_S16384x4096_0_1 : S16384x1.BroadcastsInDim S16384x4096 (![0, 1] : Fin 2 → Fin S16384x4096.rank)
  dot_S1x32x4096_S16384x4096_S1x32x16384_2_1_01_0_n_n_wf : DotDims.WF S1x32x4096 S16384x4096 S1x32x16384 [2] [1] [0, 1] [0] [] []

variable [Facts₀]

def dot_S1x32x4096_S16384x4096_S1x32x16384_2_1_01_0_n_n : DotDims S1x32x4096 S16384x4096 S1x32x16384 where
  lhsContracting := [2]
  rhsContracting := [1]
  lhsNonContracting := [0, 1]
  rhsNonContracting := [0]
  lhsBatch := []
  rhsBatch := []
  wf := dot_S1x32x4096_S16384x4096_S1x32x16384_2_1_01_0_n_n_wf

class Facts : Prop extends Facts₀ where

variable [Facts]
-- ==== Proof.LibScaleAcrossSum.lean ====
/-
  Moving a real factor across a finite sum in the extended reals.

  In the extended reals multiplication does not distribute over addition in general: with a = 1, b = −1 and
  s = +∞,  (a + b) · s = 0 · ⊤ = 0  but  a · s + b · s = ⊤ + ⊥ = ⊥. When every summand and the factor are real
  numbers nothing of the kind happens: both sides are the coercion of a real sum. Two lemmas:

  * `coe_sum` — the coercion ℝ → EReal commutes with a finite sum;
  * `sum_mul_scale` — for real xₖ (given as extended reals that are real), real wₖ and a real s,
        (∑ₖ xₖ · wₖ) · s = ∑ₖ xₖ · (wₖ · s):
    scaling a finished contraction is contracting against scaled weights.
-/
import Idealize.ShloMosaic.PureOps.Ideal

namespace Cert.Lib.ScaleAcrossSum

/-- The coercion of the reals into the extended reals commutes with finite sums. -/
theorem coe_sum {ι : Type*} (t : Finset ι) (f : ι → ℝ) :
    (∑ k ∈ t, ((f k : ℝ) : EReal)) = ((∑ k ∈ t, f k : ℝ) : EReal) := by
  classical
  induction t using Finset.induction_on with
  | empty => simp
  | insert a t ha ih => rw [Finset.sum_insert ha, Finset.sum_insert ha, ih, EReal.coe_add]

/-- Scaling a finished contraction is contracting against scaled weights, when the activations and the scale
    are real: both sides are the coercion of ∑ₖ xₖ · wₖ · s. -/
theorem sum_mul_scale {ι : Type*} [Fintype ι] (x : ι → EReal) (w : ι → ℝ) (s : EReal)
    (hx : ∀ k, ∃ r : ℝ, x k = (r : EReal)) (hs : ∃ r : ℝ, s = (r : EReal)) :
    (∑ k, x k * ((w k : ℝ) : EReal)) * s = ∑ k, x k * (((w k : ℝ) : EReal) * s) := by
  obtain ⟨s', rfl⟩ := hs
  choose x' hx' using hx
  simp only [hx', ← EReal.coe_mul, coe_sum]
  congr 1
  rw [Finset.sum_mul]
  exact Finset.sum_congr rfl fun k _ => by ring

end Cert.Lib.ScaleAcrossSum
-- ==== Proof.ScaledProduct.lean ====
/-
  A weight-only-quantized linear layer, as mathematics.

  Inputs: activations `x` of shape [1, 32, 4096]; integer weight codes `W` of shape [16384, 4096]; one scale
  `σ` per output channel, shape [16384]. The result at (0, r, o) is the contraction of row `r` of `x` with row
  `o` of `W`, dequantized by `σ o`. There are two ways to place the scale:

    * scale the finished product:      (∑ₖ x (0, r, k) · W (o, k)) · σ o       (`scaleAfter`)
    * scale the codes, then contract:   ∑ₖ x (0, r, k) · (W (o, k) · σ o)      (`scaleBefore`)

  Over the extended reals these are NOT always equal: a factor may be moved across a sum only when nothing is
  infinite. With two terms, x = (1, −1), W = (1, 1) and σ = +∞, the first is (1 − 1) · ⊤ = 0 · ⊤ = 0 while the
  second is 1 · ⊤ + (−1) · ⊤ = ⊤ + ⊥ = ⊥. When every `x` entry and every scale is a real number
  both sides are the real number ∑ₖ xₖ Wₖ σ, pushed through the coercion (`sum_mul_scale` of
  Proof/LibScaleAcrossSum.lean, over an abstract finite index type; `scaleAfter_eq` here).
  An integer code is always a real number, so no hypothesis on `W` is needed.
-/
import Idealize.ShloMosaic.PureOps.Ideal
import Idealize.ShloMosaic.Lib.ValueIdx
import proofs.«119651_j687194768080_2_alg».proof.Proof.LibScaleAcrossSum

noncomputable section

namespace Cert.ScaledProduct

open Idealize.ShloMosaic Idealize.ShloMosaic.ValueIdx Cert.Lib.ScaleAcrossSum

/-! ## The two arrangements, index by index, over the literal shapes -/

/-- Activations, weight codes, per-channel scales, and the result. -/
abbrev Act : Type := (⟨3, ![1, 32, 4096]⟩ : Shape).Idx → EReal
abbrev Codes : Type := (⟨2, ![16384, 4096]⟩ : Shape).Idx → BitVec 32
abbrev Scales : Type := (⟨1, ![16384]⟩ : Shape).Idx → EReal
abbrev Out : Type := (⟨3, ![1, 32, 16384]⟩ : Shape).Idx → EReal

/-- Contract row `r` of the activations with row `o` of the integer codes, then scale by channel `o`'s scale. -/
def scaleAfter (x : Act) (W : Codes) (σ : Scales) : Out := fun i =>
  (∑ k : Fin 4096, x (ix3 (i 0) (i 1) k) * (((W (ix2 (i 2) k)).toInt : ℝ) : EReal)) * σ (ix1 (i 2))

/-- Scale every code of row `o` by channel `o`'s scale, then contract with row `r` of the activations. -/
def scaleBefore (x : Act) (W : Codes) (σ : Scales) : Out := fun i =>
  ∑ k : Fin 4096, x (ix3 (i 0) (i 1) k) * ((((W (ix2 (i 2) k)).toInt : ℝ) : EReal) * σ (ix1 (i 2)))

/-- With real activations and real scales the two arrangements are one function. -/
theorem scaleAfter_eq (x : Act) (W : Codes) (σ : Scales)
    (hx : ∀ j, ∃ r : ℝ, x j = (r : EReal)) (hσ : ∀ j, ∃ r : ℝ, σ j = (r : EReal)) :
    scaleAfter x W σ = scaleBefore x W σ := by
  funext i
  exact sum_mul_scale (fun k : Fin 4096 => x (ix3 (i 0) (i 1) k)) (fun k => ((W (ix2 (i 2) k)).toInt : ℝ))
    (σ (ix1 (i 2))) (fun k => hx _) (hσ _)

end Cert.ScaledProduct

end
-- ==== Proof.FiniteInputs.lean ====
/-
  What the precondition says. It is the conjunction of two "all entries satisfy |·| < +∞" tests, one over the
  activations and one over the scales (the integer codes are not tested: an integer is always finite). An
  extended real whose absolute value max a (−a) is strictly below +∞ is neither +∞ (then a itself would be ⊤)
  nor −∞ (then −a would be ⊤), so it is a real number. Hence under the precondition every activation and every
  scale is the coercion of a real.
-/
import proofs.«119651_j687194768080_2_alg».proof.Proof.Gen.Pre_finite_inputs
import Idealize.ShloMosaic.PureOps.Ideal.Laws
import Idealize.ShloMosaic.Lib.ReduceAll
import Idealize.ShloMosaic.Lib.ValueIdx

noncomputable section

namespace Cert.FiniteInputs

open Idealize.ShloMosaic Cert.Pre_finite_inputs

instance : Subsingleton S_.Idx := ⟨fun a b => funext fun d => d.elim0⟩

/-- The pattern the test compares against denotes +∞. -/
theorem inf_word : Ideal.ofBits .f32 0x7F800000#32 = (⊤ : EReal) := by
  simp [Ideal.ofBits, Ideal.ieee]

/-- An extended real with |a| < +∞ is a real number. -/
theorem real_of_abs_lt_top (a : EReal) (h : max a (-a) < ⊤) : ∃ r : ℝ, a = (r : EReal) := by
  induction a using EReal.rec with
  | bot => simp at h
  | coe r => exact ⟨r, rfl⟩
  | top => simp at h

/-- One entry passing the printed test is a real number. -/
theorem real_of_test (a : EReal)
    (h : FloatOps.cmpf (F := Ideal) (φ := .f32) .olt (FloatOps.hostAbsf a) (Ideal.ofBits .f32 0x7F800000#32) = 1#1) :
    ∃ r : ℝ, a = (r : EReal) := by
  refine real_of_abs_lt_top a ?_
  rw [Ideal.hostAbsf_def, Ideal.cmpf_def, Ideal.absf_def, inf_word] at h
  by_contra hn
  simp [Ideal.cmp, hn] at h

/-- Under the precondition every activation and every scale is a real number. -/
theorem reals_of_pre (x : FVec Ideal S1x32x4096 .f32) (W : IVec S16384x4096 32) (σ : FVec Ideal S16384 .f32)
    (h : Cert.Pre_finite_inputs.fn (F := Ideal) x W σ = fun _ => 1#1) :
    (∀ j, ∃ r : ℝ, x j = (r : EReal)) ∧ (∀ j, ∃ r : ℝ, σ j = (r : EReal)) := by
  have h0 := congrFun h ValueIdx.ix0
  dsimp only [Cert.Pre_finite_inputs.fn, andi] at h0
  obtain ⟨hx, hσ⟩ := IntOp.andi_eq_one.1 h0
  exact ⟨fun j => real_of_test _ (Host.reduce_andi_all _ _ _ _ _ hx j),
    fun j => real_of_test _ (Host.reduce_andi_all _ _ _ _ _ hσ j)⟩

end Cert.FiniteInputs

end
-- ==== Proof.ReferenceValue.lean ====
/-
  What the reference computes, index by index: it converts the integer codes to floats, multiplies every code of
  row `o` by the scale of channel `o` (the scale vector broadcast along the contracted axis), and contracts the
  activations with the scaled codes over the 4096 input features — the arrangement `scaleBefore`. Read one
  operation at a time from the generated stages; the only work is identifying the operand indices: output index
  (0, r, o) and contraction index k read the activations at (0, r, k), the codes at (o, k), and the scales at (o).
-/
import proofs.«119651_j687194768080_2_alg».proof.Proof.Gen.ReferenceIdeal.Read
import proofs.«119651_j687194768080_2_alg».proof.Proof.ScaledProduct

noncomputable section

namespace Cert.ReferenceIdeal.RefValue

open Cert.ReferenceIdeal Cert.ReferenceIdeal.Read Idealize.ShloMosaic Idealize.ShloMosaic.ValueIdx Cert.ScaledProduct

/-- The contraction reads the activations at (0, r, k); -/
theorem act_idx (i : S1x32x16384.Idx) (k : Fin 4096) : lidx_main_v4 i k = ix3 (i 0) (i 1) k :=
  funext fun a => Fin.ext (by match a with | ⟨0, _⟩ => rfl | ⟨1, _⟩ => rfl | ⟨2, _⟩ => rfl)

/-- the scaled codes at (o, k); -/
theorem code_idx (i : S1x32x16384.Idx) (k : Fin 4096) : ridx_main_v4 i k = ix2 (i 2) k :=
  funext fun a => Fin.ext (by match a with | ⟨0, _⟩ => rfl | ⟨1, _⟩ => rfl)

/-- and the scale broadcast to (o, k) is the scale of channel o. -/
theorem scale_idx (i : S1x32x16384.Idx) (k : Fin 4096) : idx_main_v1 (idx_main_v2 (ix2 (i 2) k)) = ix1 (i 2) :=
  funext fun a => Fin.ext (by match a with | ⟨0, _⟩ => rfl)

/-- The reference's result is `scaleBefore` of its three arguments. -/
theorem reference_eq (x : (⟨S1x32x4096, .f32⟩ : BufTy).Contents (Elt Ideal)) (W : (⟨S16384x4096, .i32⟩ : BufTy).Contents (Elt Ideal))
    (σ : (⟨S16384, .f32⟩ : BufTy).Contents (Elt Ideal)) :
    val_main_v4 (F := Ideal) x W σ = scaleBefore x W σ := by
  funext i
  rw [val_main_v4_apply]
  unfold scaleBefore
  refine Finset.sum_congr rfl fun k _ => ?_
  rw [val_main_v3_apply, val_main_v0_apply, val_main_v2_apply, val_main_v1_apply, act_idx i k, code_idx i k, scale_idx i k]
  rfl

end Cert.ReferenceIdeal.RefValue

end
-- ==== Proof.ChunkValue.lean ====
/-
  One 128-channel chunk of the kernel's body, as arithmetic.

  At every grid point the body handles its 1024 output channels in eight chunks of 128. Each chunk takes the
  whole activation block `x` ([1, 32, 4096]), 128 rows `w` of integer codes ([128, 4096]) and their 128 scales
  `s` ([1, 128]); it converts the codes to floats, contracts `x` with them over the 4096 input features into a
  zero accumulator, multiplies column `l` of the [32, 128] product by `s (0, l)`, and stores the result as a
  [1, 32, 128] tile. The eight stores carry eight differently named payloads (the body's text is cut into
  windows by position, so a chunk's operations may straddle a cut), but all eight are ONE function of
  (`x`, `w`, `s`) (`pay_*`, each by unfolding).

  At the ideal instance the narrowing of `x` and the integer-to-float conversion are exact, the product
  into a zero accumulator is the plain sum over the contracted axis (`contract_apply`), and so the chunk at
  tile index (u, r, l) is  (∑ₖ x (0, r, k) · w (l, k)) · s (0, l)   (`chunk_apply`).
-/
import proofs.«119651_j687194768080_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.ChunkValue

open Cert.KernelIdeal Cert.KernelIdeal.Gen Idealize.ShloMosaic Idealize.ShloMosaic.ValueIdx

/-! ## The eight payloads are one function -/

section OneFunction
variable {F : FTy → Type} [FloatOps F]
variable (x : Vec F S1x32x4096 .f32) (w : Vec F S128x4096 .i32) (s : Vec F S1x128 .f32)

theorem pay_1 : k0_pay4 x w s = k0_pay3 x w s := rfl
theorem pay_2 : k0_pay5 (k0_pay2 x) w s = k0_pay3 x w s := rfl
theorem pay_3 : k0_pay6 (k0_pay2 x) w s = k0_pay3 x w s := rfl
theorem pay_4 : k0_pay8 (k0_pay7 (k0_pay2 x) w s) = k0_pay3 x w s := rfl
theorem pay_5 : k0_pay9 (k0_pay2 x) w s = k0_pay3 x w s := rfl
theorem pay_6 : k0_pay10 (k0_pay2 x) w s = k0_pay3 x w s := rfl
theorem pay_7 : k0_pay1 (k0_pay11 (k0_pay2 x) w) s = k0_pay3 x w s := rfl

end OneFunction

/-! ## The chunk's matrix product as a sum -/

/-- The dimension numbers of the chunk's product: [32, 4096] × [128, 4096] → [32, 128], contracting axis 1 of both. -/
abbrev dims : DotDims S32x4096 S128x4096 S32x128 := dot_S32x4096_S128x4096_S32x128_1_1_0_0_n_n

theorem lhs_row (j : S32x128.Idx) (q : dims.contr.Idx) : (dims.lhsIdx j q 0).val = (j 0).val := by
  unfold DotDims.lhsIdx
  rw [dif_neg (show ¬(0 : Fin S32x4096.rank) ∈ dims.lhsBatch by decide), dif_pos (show (0 : Fin S32x4096.rank) ∈ dims.lhsNonContracting by decide)]
  rfl
theorem lhs_col (j : S32x128.Idx) (q : dims.contr.Idx) : (dims.lhsIdx j q 1).val = (q ⟨0, by decide⟩).val :=
  dims.lhsIdx_val_of_single rfl j q
theorem rhs_row (j : S32x128.Idx) (q : dims.contr.Idx) : (dims.rhsIdx j q 0).val = (j 1).val := by
  unfold DotDims.rhsIdx
  rw [dif_neg (show ¬(0 : Fin S128x4096.rank) ∈ dims.rhsBatch by decide), dif_pos (show (0 : Fin S128x4096.rank) ∈ dims.rhsNonContracting by decide)]
  rfl
theorem rhs_col (j : S32x128.Idx) (q : dims.contr.Idx) : (dims.rhsIdx j q 1).val = (q ⟨0, by decide⟩).val :=
  dims.rhsIdx_val_of_single rfl j q

/-- Into a zero accumulator, entry (r, l) of the product is the sum over the 4096 features of row `r` of the left
    operand times row `l` of the right. -/
theorem contract_apply (a : FVec Ideal S32x4096 .bf16) (b : FVec Ideal S128x4096 .bf16) (r : Fin 32) (l : Fin 128) :
    matmul dims none a b (constant (F := Ideal) S32x128 .f32 0x00000000#32) (ix2 r l)
      = ∑ k : Fin 4096, a (ix2 r k) * b (ix2 l k) := by
  simp only [matmul]
  rw [Ideal.matmul_constant_zero_apply, ← Equiv.sum_comp (contrEquiv1 dims 4096 rfl rfl).symm]
  refine Finset.sum_congr rfl fun k _ => ?_
  have hk := contrEquiv1_symm_val dims 4096 rfl rfl k
  have el : dims.lhsIdx (ix2 r l) ((contrEquiv1 dims 4096 rfl rfl).symm k) = ix2 r k := funext fun ax => Fin.ext (by
    match ax with
    | ⟨0, _⟩ => exact lhs_row _ _
    | ⟨1, _⟩ => exact (lhs_col _ _).trans hk)
  have er : dims.rhsIdx (ix2 r l) ((contrEquiv1 dims 4096 rfl rfl).symm k) = ix2 l k := funext fun ax => Fin.ext (by
    match ax with
    | ⟨0, _⟩ => exact rhs_row _ _
    | ⟨1, _⟩ => exact (rhs_col _ _).trans hk)
  rw [el, er]

/-! ## The chunk at an index -/

/-- The chunk at tile index (u, r, l): row `r` of the activations contracted with row `l` of the codes, times
    the scale of column `l`. -/
theorem chunk_apply (x : Vec Ideal S1x32x4096 .f32) (w : Vec Ideal S128x4096 .i32) (s : Vec Ideal S1x128 .f32)
    (u : Fin 1) (r : Fin 32) (l : Fin 128) :
    k0_pay3 (F := Ideal) x w s (ix3 u r l)
      = (∑ k : Fin 4096, x (ix3 (0 : Fin 1) r k) * (((w (ix2 l k)).toInt : ℝ) : EReal)) * s (ix2 (0 : Fin 1) l) := by
  unfold k0_pay3 k0_pay2
  refine (shapeCast_ab_1ab_apply _ _ u r l).trans ?_
  refine (mulf_apply _ _ _).trans ?_
  refine congrArg₂ (· * ·) ?_ ?_
  · refine (contract_apply _ _ r l).trans (Finset.sum_congr rfl fun k _ => ?_)
    refine congrArg₂ (· * ·) ?_ rfl
    exact shapeCast_1ab_ab_apply x _ r k
  · refine (broadcastTo_1b_ab_apply _ _ r l).trans ?_
    exact congrFun (shapeCast_self s _) _

end Cert.KernelIdeal.ChunkValue

end
-- ==== Proof.BlockValue.lean ====
/-
  What one grid point leaves in its output block.

  The body writes its [1, 32, 1024] output block as eight [1, 32, 128] tiles, tile n at lane offset 128·n.
  Tile n is the chunk function of the whole activation block, rows 128·n … 128·n + 127 of the point's
  [1024, 4096] block of codes, and lanes 128·n … 128·n + 127 of its [1, 1024] block of scales. So at block
  index (u, r, j), with j = 128·n + l, the tile's value (∑ₖ x (0, r, k) · w (128·n + l, k)) · s (0, 128·n + l)
  depends on n and l only through j: every tile is the restriction of ONE function of the block index,
  `blockFn` (`tile_eq`). The eight tiles cover the block, so the block the point leaves IS `blockFn` of
  the point's three input blocks (`out_eq`) — whatever the staging buffers and the grid coordinates.
-/
import proofs.«119651_j687194768080_2_alg».proof.Proof.Gen.KernelIdeal.Frame
import proofs.«119651_j687194768080_2_alg».proof.Proof.ChunkValue
import Idealize.ShloMosaic.Lib.Tactic

set_option maxRecDepth 16384

noncomputable section

namespace Cert.KernelIdeal.BlockValue

open Cert.KernelIdeal Cert.KernelIdeal.Gen Cert.KernelIdeal.ChunkValue
open Idealize.ShloMosaic Idealize.ShloMosaic.TcCoe Idealize.ShloMosaic.ValueIdx Idealize.SL.Sem

/-- The output block as a function of the point's input blocks: at (u, r, j), row `r` of the activations
    contracted with row `j` of the block of codes, times scale `j` of the block of scales. -/
def blockFn (x : Vec Ideal S1x32x4096 .f32) (w : Vec Ideal S1024x4096 .i32) (s : Vec Ideal S1x1024 .f32) :
    Vec Ideal S1x32x1024 .f32 := fun y =>
  (∑ k : Fin 4096, x (ix3 (0 : Fin 1) (y 1) k) * (((w (ix2 (y 2) k)).toInt : ℝ) : EReal)) * s (ix2 (0 : Fin 1) (y 2))

/-- The tile stored at lane offset `o` — the chunk of rows `o …` of the codes and lanes `o …` of the scales —
    is `blockFn` read through the tile's rectangle. -/
theorem tile_eq (o : Nat) (x : Vec Ideal S1x32x4096 .f32) (w : Vec Ideal S1024x4096 .i32) (s : Vec Ideal S1x1024 .f32)
    (inb1 : ∀ a, (![o, 0] : Fin 2 → Nat) a + (![128, 4096] : Fin 2 → Nat) a ≤ S1024x4096.size a)
    (inb2 : ∀ a, (![0, o] : Fin 2 → Nat) a + (![1, 128] : Fin 2 → Nat) a ≤ S1x1024.size a)
    (inb3 : ∀ a, (![0, 0, o] : Fin 3 → Nat) a + (![1, 32, 128] : Fin 3 → Nat) a ≤ S1x32x1024.size a)
    (y : S1x32x128.Idx) :
    k0_pay3 (F := Ideal) x (View.ld w (Rect.unit (s := S1024x4096) ![o, 0] ![128, 4096] inb1))
        (View.ld s (Rect.unit (s := S1x1024) ![0, o] ![1, 128] inb2)) y
      = blockFn x w s ((Rect.unit (s := S1x32x1024) ![0, 0, o] ![1, 32, 128] inb3).emb y) := by
  obtain ⟨u, r, l, rfl⟩ : ∃ (u : Fin 1) (r : Fin 32) (l : Fin 128), y = ix3 u r l := ⟨y 0, y 1, y 2, eq_ix3 y⟩
  rw [chunk_apply]
  unfold blockFn
  refine congrArg₂ (· * ·) (Finset.sum_congr rfl fun k _ => congrArg₂ (· * ·) (congrArg x ?_)
    (congrArg (fun b : BitVec 32 => ((b.toInt : ℝ) : EReal)) (congrArg w ?_))) (congrArg s ?_)
  · funext a; apply Fin.ext
    match a with
    | ⟨0, _⟩ => rfl
    | ⟨1, _⟩ => show r.val = 0 + 1 * r.val; omega
    | ⟨2, _⟩ => rfl
  · funext a; apply Fin.ext
    match a with
    | ⟨0, _⟩ => rfl
    | ⟨1, _⟩ => show 0 + 1 * k.val = k.val; omega
  · funext a; apply Fin.ext
    match a with
    | ⟨0, _⟩ => rfl
    | ⟨1, _⟩ => rfl

theorem hz3 : (![0, 0, 0] : Fin 3 → Nat) = fun _ => 0 := funext fun a => by fin_cases a <;> rfl

/-- The block a grid point leaves is `blockFn` of its input blocks: every one of the eight tiles the run found
    agrees with it, and together they cover the block. -/
theorem out_eq (c : Dev nD) (i : grid0.Coords) (a1 : Memref sig .tc .vmem S1x32x4096 .f32) (h1 : a1.IsWhole)
    (a2 : Memref sig .tc .vmem S1024x4096 .i32) (h2 : a2.IsWhole) (a3 : Memref sig .tc .vmem S1x1024 .f32) (h3 : a3.IsWhole)
    (a4 : Memref sig .tc .vmem S1x32x1024 .f32) (h4 : a4.IsWhole)
    (x : Vec Ideal S1x32x4096 .f32) (w : Vec Ideal S1024x4096 .i32) (s : Vec Ideal S1x1024 .f32) :
    out0_A_3 (F := Ideal) c i a1 h1 a2 h2 a3 h3 a4 h4 x w s = blockFn x w s := by
  unfold out0_A_3
  rw [View.read_writes_eq_canon _ _ _ (cover0_A_3 c i a1 h1 a2 h2 a3 h3 a4 h4 x w s)]
  funext y
  refine View.canon_apply_of_pieces (blockFn x w s) _ ?_ y (cover0_A_3 c i a1 h1 a2 h2 a3 h3 a4 h4 x w s y)
  unfold kernelRun0_A
  dsimp only
  sl_unfold_words
  simp only [View.readAt_eq_ld, h1.read_unread, h2.read_unread, h3.read_unread, View.ld_unit_zero (S := S1x32x4096) hz3,
    pay_1, pay_2, pay_3, pay_4, pay_5, pay_6, pay_7]
  intro p hp
  simp only [List.mem_cons, List.not_mem_nil, or_false] at hp
  rcases hp with rfl | rfl | rfl | rfl | rfl | rfl | rfl | rfl
  · exact fun t => tile_eq 896 x w s (by decide) (by decide) (by decide) t
  · exact fun t => tile_eq 768 x w s (by decide) (by decide) (by decide) t
  · exact fun t => tile_eq 640 x w s (by decide) (by decide) (by decide) t
  · exact fun t => tile_eq 512 x w s (by decide) (by decide) (by decide) t
  · exact fun t => tile_eq 384 x w s (by decide) (by decide) (by decide) t
  · exact fun t => tile_eq 256 x w s (by decide) (by decide) (by decide) t
  · exact fun t => tile_eq 128 x w s (by decide) (by decide) (by decide) t
  · exact fun t => tile_eq 0 x w s (by decide) (by decide) (by decide) t

end Cert.KernelIdeal.BlockValue

end
-- ==== Proof.ArrayValue.lean ====
/-
  From blocks to the whole result array.

  The grid has 16 points. Point t reads the whole activation array, rows 1024·t … 1024·t + 1023 of the codes,
  lanes 1024·t … 1024·t + 1023 of the scales (staged as one row [1, 16384], the [16384] argument reshaped),
  and writes lanes 1024·t … of the [1, 32, 16384] result. Reading each input block where the output block's
  rectangle says (`read_act`, `read_codes`, `read_scales`), the block function of the point's input blocks at
  block index j is `scaleAfter` of the three ARGUMENT arrays at the array index j sits at (`flushed_eq`): what
  every point writes back is its block of one whole-array function. Lane c of the result lies in the block of
  point c / 1024, so the sixteen blocks cover the array (`covered`), and the result array ends holding
  `scaleAfter` of the arguments (`final`, `run`).
-/
import proofs.«119651_j687194768080_2_alg».proof.Proof.Gen.KernelIdeal.Value
import proofs.«119651_j687194768080_2_alg».proof.Proof.BlockValue
import proofs.«119651_j687194768080_2_alg».proof.Proof.ScaledProduct
import Idealize.ShloMosaic.Lib.StableHlo.Run
import Idealize.ShloMosaic.Lib.ValueLayout

set_option maxRecDepth 16384

noncomputable section

namespace Cert.KernelIdeal.ArrayValue

open Cert.KernelIdeal Cert.KernelIdeal.Gen Cert.KernelIdeal.Value Cert.KernelIdeal.BlockValue Cert.ScaledProduct
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## Where each window's block sits -/

/-- The printed index maps over the grid: the activations' block never moves; the codes' block moves along rows,
    the scales' and the result's along lanes, all with the point. -/
theorem idx_facts : ∀ t : Fin cfg0.N,
    win0_0.index t (0 : Fin 3) = 0 ∧ win0_0.index t (1 : Fin 3) = 0 ∧ win0_0.index t (2 : Fin 3) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 3) = 0 ∧ win0_3.index t (1 : Fin 3) = 0 ∧ win0_3.index t (2 : Fin 3) = t.val :=
  (by decide +kernel : ∀ t : Fin grid0.N, _)

/-- The scales as the region finds them: the [16384] argument viewed as one row. -/
theorem scales_row (c : Dev nD) :
    (V m c main_v0 : S1x16384.Idx → EReal) = shapeCast S1x16384 (m ((c : Thread nD τ).loc main_arg2)) shapeCasts_S16384_S1x16384 := by
  dsimp only [Gen.V, Gen.hostOps0]; after_results; rfl

/-! ## Each input block read where the output block's rectangle says -/

/-- Row `j 1` of the activations' block is row (0, j 1) of the argument, whatever the point. -/
theorem read_act (c : Dev nD) (t : Fin cfg0.N) (j : S1x32x1024.Idx) (k : Fin 4096) :
    iblk m c 0 t (ix3 (0 : Fin 1) (j 1) k)
      = m ((c : Thread nD τ).loc main_arg0) (ix3 ((((cfg0.win 3).blk t).view.emb j) 0) ((((cfg0.win 3).blk t).view.emb j) 1) k) := by
  obtain ⟨e00, e01, e02, e10, e11, e20, e21, e30, e31, e32⟩ := idx_facts t
  show V m c main_arg0 (((cfg0.win 0).blk t).view.emb (ix3 (0 : Fin 1) (j 1) k)) = _
  rw [V_main_arg0]
  refine congrArg _ (funext fun a => Fin.ext ?_)
  have hj0 : (j 0).val < 1 := (j 0).isLt
  match a with
  | ⟨0, _⟩ => show win0_0.index t (0 : Fin 3) * 1 + 1 * 0 = win0_3.index t (0 : Fin 3) * 1 + 1 * (j 0).val; omega
  | ⟨1, _⟩ => show win0_0.index t (1 : Fin 3) * 32 + 1 * (j 1).val = win0_3.index t (1 : Fin 3) * 32 + 1 * (j 1).val; omega
  | ⟨2, _⟩ => show win0_0.index t (2 : Fin 3) * 4096 + 1 * k.val = k.val; omega

/-- Row `j 2` of the codes' block is the argument's row at the lane `j` sits at in the result. -/
theorem read_codes (c : Dev nD) (t : Fin cfg0.N) (j : S1x32x1024.Idx) (k : Fin 4096) :
    iblk m c 1 t (ix2 (j 2) k)
      = m ((c : Thread nD τ).loc main_arg1) (ix2 ((((cfg0.win 3).blk t).view.emb j) 2) k) := by
  obtain ⟨e00, e01, e02, e10, e11, e20, e21, e30, e31, e32⟩ := idx_facts t
  show V m c main_arg1 (((cfg0.win 1).blk t).view.emb (ix2 (j 2) k)) = _
  rw [V_main_arg1]
  refine congrArg _ (funext fun a => Fin.ext ?_)
  match a with
  | ⟨0, _⟩ => show win0_1.index t (0 : Fin 2) * 1024 + 1 * (j 2).val = win0_3.index t (2 : Fin 3) * 1024 + 1 * (j 2).val; omega
  | ⟨1, _⟩ => show win0_1.index t (1 : Fin 2) * 4096 + 1 * k.val = k.val; omega

/-- Scale `j 2` of the scales' block is the argument's scale at that same lane. -/
theorem read_scales (c : Dev nD) (t : Fin cfg0.N) (j : S1x32x1024.Idx) :
    iblk m c 2 t (ix2 (0 : Fin 1) (j 2))
      = m ((c : Thread nD τ).loc main_arg2) (ix1 ((((cfg0.win 3).blk t).view.emb j) 2)) := by
  obtain ⟨e00, e01, e02, e10, e11, e20, e21, e30, e31, e32⟩ := idx_facts t
  show V m c main_v0 (((cfg0.win 2).blk t).view.emb (ix2 (0 : Fin 1) (j 2))) = _
  rw [scales_row]
  have e : ((cfg0.win 2).blk t).view.emb (ix2 (0 : Fin 1) (j 2)) = ix2 (0 : Fin 1) ((((cfg0.win 3).blk t).view.emb j) 2) :=
    funext fun a => Fin.ext (by
      match a with
      | ⟨0, _⟩ => show win0_2.index t (0 : Fin 2) * 1 + 1 * 0 = 0; omega
      | ⟨1, _⟩ => show win0_2.index t (1 : Fin 2) * 1024 + 1 * (j 2).val = win0_3.index t (2 : Fin 3) * 1024 + 1 * (j 2).val; omega)
  rw [e]
  exact shapeCast_a_1a_apply _ _ _ _

/-! ## What a point writes back -/

/-- The block function of three blocks that read three arrays as above is `scaleAfter` of the arrays. -/
theorem blockFn_eq_of_reads (X : Act) (W : Codes) (σ : Scales)
    (x : Vec Ideal S1x32x4096 .f32) (w : Vec Ideal S1024x4096 .i32) (s : Vec Ideal S1x1024 .f32)
    (j : S1x32x1024.Idx) (i : S1x32x16384.Idx)
    (hx : ∀ k : Fin 4096, x (ix3 (0 : Fin 1) (j 1) k) = X (ix3 (i 0) (i 1) k))
    (hw : ∀ k : Fin 4096, w (ix2 (j 2) k) = W (ix2 (i 2) k))
    (hs : s (ix2 (0 : Fin 1) (j 2)) = σ (ix1 (i 2))) :
    blockFn x w s j = scaleAfter X W σ i := by
  unfold blockFn scaleAfter
  rw [hs]
  exact congrArg (· * σ (ix1 (i 2))) (Finset.sum_congr rfl fun k _ => by rw [hx k, hw k])

/-- WHAT POINT `t` WRITES BACK is block `t` of `scaleAfter` of the argument arrays. -/
theorem flushed_eq (c : Dev nD) (t : Fin cfg0.N) :
    (dats m 0 c).flushed 3 t = ((cfg0.win 3).blk t).view.read (Elt Ideal)
      (scaleAfter (m ((c : Thread nD τ).loc main_arg0)) (m ((c : Thread nD τ).loc main_arg1)) (m ((c : Thread nD τ).loc main_arg2))) := by
  rw [flushed3_A, out_eq]
  funext j
  exact blockFn_eq_of_reads _ _ _ _ _ _ j (((cfg0.win 3).blk t).view.emb j)
    (fun k => read_act m c t j k) (fun k => read_codes m c t j k) (read_scales m c t j)

/-! ## The blocks cover the array -/

theorem mem_blk (t : Fin cfg0.N) (i : S1x32x16384.Idx) :
    i ∈ ((cfg0.win 3).blk t).view.set ↔ ∀ a : Fin 3, win0_3.index t a * S1x32x1024.size a ≤ (i a).val
      ∧ (i a).val < win0_3.index t a * S1x32x1024.size a + S1x32x1024.size a := by
  show i ∈ ((View.whole main_v1).slice (win0_3.rect t)).set ↔ _
  rw [View.set_slice_whole, Rect.mem_set_unit]
  exact Iff.rfl

/-- Lane c of the result is in the block of point c / 1024. -/
theorem covered (i : S1x32x16384.Idx) :
    ∃ t : Fin cfg0.N, (cfg0.win 3).flush t = true ∧ i ∈ ((cfg0.win 3).blk t).view.set := by
  have hN : cfg0.N = 16 := N_0
  have h0 : (i 0).val < 1 := (i 0).isLt
  have h1 : (i 1).val < 32 := (i 1).isLt
  have h2 : (i 2).val < 16384 := (i 2).isLt
  refine ⟨⟨(i 2).val / 1024, by omega⟩, flush0_3 _, ?_⟩
  obtain ⟨e00, e01, e02, e10, e11, e20, e21, e30, e31, e32⟩ := idx_facts ⟨(i 2).val / 1024, by omega⟩
  rw [mem_blk]
  intro a
  match a with
  | ⟨0, _⟩ => show win0_3.index _ (0 : Fin 3) * 1 ≤ (i 0).val ∧ (i 0).val < win0_3.index _ (0 : Fin 3) * 1 + 1; omega
  | ⟨1, _⟩ => show win0_3.index _ (1 : Fin 3) * 32 ≤ (i 1).val ∧ (i 1).val < win0_3.index _ (1 : Fin 3) * 32 + 32; omega
  | ⟨2, _⟩ => show win0_3.index _ (2 : Fin 3) * 1024 ≤ (i 2).val ∧ (i 2).val < win0_3.index _ (2 : Fin 3) * 1024 + 1024
              rw [e32]; show (i 2).val / 1024 * 1024 ≤ (i 2).val ∧ (i 2).val < (i 2).val / 1024 * 1024 + 1024; omega

/-! ## The result array, and the run -/

/-- THE RESULT ARRAY after the run is `scaleAfter` of the argument arrays. -/
theorem final (c : Dev nD) : (dats m 0 c).arrAt 3 cfg0.N
    = scaleAfter (m ((c : Thread nD τ).loc main_arg0)) (m ((c : Thread nD τ).loc main_arg1)) (m ((c : Thread nD τ).loc main_arg2)) :=
  (dats m 0 c).arrAt_eq_of_cover 3 _ (fun t _ => flushed_eq m c t) covered

/-- Every weakly fair execution of the idealized kernel ends with the result array at `scaleAfter` of the arguments,
    and the arguments unchanged. -/
theorem run : θ_run defs (onTc (τ := τ) (main (F := Ideal))) ⟨m, fun _ => 0, ρ⟩ fun r => ∀ c : Dev nD,
      r.2.mem ((c : Thread nD τ).loc main_v1)
        = scaleAfter (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.ArrayValue

end
-- ==== Proof.lean ====
/-
  A weight-only-quantized linear layer: the tiled kernel and the plain reference compute the same array.

  Arguments: activations x [1, 32, 4096] (floats), integer weight codes W [16384, 4096], one float scale σ per
  output channel [16384]. Result [1, 32, 16384].

  The kernel walks the output channels in 16 blocks of 1024 and, inside a block, in 8 chunks of 128: it
  contracts the activations with 128 rows of codes (converted to floats) into a zero accumulator and multiplies
  column l of the product by that channel's scale. So its result at (0, r, o) is
        (∑ₖ x (0, r, k) · W (o, k)) · σ o                                  (Proof/ScaledProduct.lean, `scaleAfter`)
  — a chunk as arithmetic in Proof/ChunkValue.lean, the eight chunks of a block as one function of the block
  index in Proof/BlockValue.lean, the sixteen blocks as one function of the array index in Proof/ArrayValue.lean.

  The reference scales the codes first and contracts afterwards: at (0, r, o) it is
        ∑ₖ x (0, r, k) · (W (o, k) · σ o)                                  (`scaleBefore`; Proof/ReferenceValue.lean).

  Over the extended reals the two differ in general (a factor does not move across a sum past infinities), but
  the precondition makes every activation and every scale a real number (Proof/FiniteInputs.lean), an integer
  code is a real number anyway, and then both are the real ∑ₖ xₖ Wₖ σ (`scaleAfter_eq`). The changes of float
  format on the way (the activations narrowed, the codes converted to a narrow or a wide float) are exact at
  the ideal instance, and a different tiling or order of a sum is no difference there.

  The three frames are the generated ones (the reference's: its generated run with the result dropped), and the
  idealization rewrote nothing, so `preserves` is trivial.
-/
import proofs.«119651_j687194768080_2_alg».proof.Defs
import proofs.«119651_j687194768080_2_alg».proof.Proof.Gen.Kernel
import proofs.«119651_j687194768080_2_alg».proof.Proof.Gen.Kernel.Skeleton
import proofs.«119651_j687194768080_2_alg».proof.Proof.Gen.Kernel.Launch
import proofs.«119651_j687194768080_2_alg».proof.Proof.Gen.Kernel.Points
import proofs.«119651_j687194768080_2_alg».proof.Proof.Gen.Kernel.Frame
import proofs.«119651_j687194768080_2_alg».proof.Proof.Gen.KernelIdeal
import proofs.«119651_j687194768080_2_alg».proof.Proof.Gen.KernelIdeal.Skeleton
import proofs.«119651_j687194768080_2_alg».proof.Proof.Gen.KernelIdeal.Launch
import proofs.«119651_j687194768080_2_alg».proof.Proof.Gen.KernelIdeal.Points
import proofs.«119651_j687194768080_2_alg».proof.Proof.Gen.KernelIdeal.Frame
import proofs.«119651_j687194768080_2_alg».proof.Proof.Gen.KernelIdeal.Value
import proofs.«119651_j687194768080_2_alg».proof.Proof.Gen.ReferenceIdeal
import proofs.«119651_j687194768080_2_alg».proof.Proof.Gen.ReferenceIdeal.Run
import proofs.«119651_j687194768080_2_alg».proof.Proof.Gen.ReferenceIdeal.Read
import proofs.«119651_j687194768080_2_alg».proof.Proof.Gen.Pre_finite_inputs
import proofs.«119651_j687194768080_2_alg».proof.Proof.ScaledProduct
import proofs.«119651_j687194768080_2_alg».proof.Proof.FiniteInputs
import proofs.«119651_j687194768080_2_alg».proof.Proof.ReferenceValue
import proofs.«119651_j687194768080_2_alg».proof.Proof.ArrayValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments, the kernel's result array ends at `scaleAfter` of the arguments and
    the reference's at `scaleBefore` of them; the precondition makes the activations and scales real, and then the
    two are one function. -/
theorem algebraic : Cert.algebraic_KernelIdeal_ReferenceIdeal := by
  intro m ρ m' ρ' hpre hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v4_eq,
    Cert.ReferenceIdeal.RefValue.reference_eq]
  obtain ⟨hx, hσ⟩ := Cert.FiniteInputs.reals_of_pre _ _ _ (hpre c)
  exact (Cert.ScaledProduct.scaleAfter_eq _ _ _ hx hσ).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
